-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x4096x1024 .f32) (main_arg1 : FVec F S1024x1024 .f32) (main_arg2 : FVec F S1024 .f32) (main_arg3 : FVec F S1024x1024 .f32) (main_arg4 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S8x1x1024 : Shape := ⟨3, ![8, 1, 1024]⟩
abbrev S8x1024 : Shape := ⟨2, ![8, 1024]⟩
abbrev S1x1024 : Shape := ⟨2, ![1, 1024]⟩
abbrev S8x4096 : Shape := ⟨2, ![8, 4096]⟩
abbrev S8x128x1024 : Shape := ⟨3, ![8, 128, 1024]⟩
abbrev S8x128 : Shape := ⟨2, ![8, 128]⟩
abbrev S1x1x1024 : Shape := ⟨3, ![1, 1, 1024]⟩
abbrev S_ : Shape := ⟨0, ![]⟩
abbrev S8 : Shape := ⟨1, ![8]⟩
abbrev S8x1 : Shape := ⟨2, ![8, 1]⟩

abbrev nBuf : Space → Nat
  | .hbm => 28
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S8x1x1024, .f32⟩
  | .hbm, ⟨6, _⟩ => ⟨S8x1024, .f32⟩
  | .hbm, ⟨7, _⟩ => ⟨S1024x1024, .f32⟩
  | .hbm, ⟨8, _⟩ => ⟨S8x1024, .f32⟩
  | .hbm, ⟨9, _⟩ => ⟨S1x1024, .f32⟩
  | .hbm, ⟨10, _⟩ => ⟨S8x1024, .f32⟩
  | .hbm, ⟨11, _⟩ => ⟨S8x1024, .f32⟩
  | .hbm, ⟨12, _⟩ => ⟨S1024x1024, .f32⟩
  | .hbm, ⟨13, _⟩ => ⟨S8x4096, .f32⟩
  | .hbm, ⟨14, _⟩ => ⟨S_, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8x1, .f32⟩
  | .hbm, ⟨20, _⟩ => ⟨S8x4096, .f32⟩
  | .hbm, ⟨21, _⟩ => ⟨S8x4096, .f32⟩
  | .hbm, ⟨22, _⟩ => ⟨S8x4096, .f32⟩
  | .hbm, ⟨23, _⟩ => ⟨S_, .f32⟩
  | .hbm, ⟨24, _⟩ => ⟨S8, .f32⟩
  | .hbm, ⟨25, _⟩ => ⟨S8x1, .f32⟩
  | .hbm, ⟨26, _⟩ => ⟨S8x4096, .f32⟩
  | .hbm, ⟨27, _⟩ => ⟨S8x4096, .f32⟩
  | .local _ .vmem, ⟨0, _⟩ => ⟨S8x128x1024, .f32⟩
  | .local _ .vmem, ⟨1, _⟩ => ⟨S8x128x1024, .f32⟩
  | .local _ .vmem, ⟨2, _⟩ => ⟨S1024x1024, .f32⟩
  | .local _ .vmem, ⟨3, _⟩ => ⟨S1024, .f32⟩
  | .local _ .vmem, ⟨4, _⟩ => ⟨S8x1024, .f32⟩
  | .local _ .vmem, ⟨5, _⟩ => ⟨S8x128, .f32⟩
  | .local _ .vmem, ⟨6, _⟩ => ⟨S8x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S8x4096x1024_S8x1x1024_0_0_0 : S8x4096x1024.Slices ![0, 0, 0] S8x1x1024
  shapeCasts_S8x1x1024_S8x1024 : S8x1x1024.ShapeCasts S8x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  inb_S8x128x1024_S8x128x1024_0_0_0 : ∀ a, (![0, 0, 0] : Fin 3 → Nat) a + S8x128x1024.size a ≤ S8x128x1024.size a
  h_S8x128x1024 : 0 < S8x128x1024.numel
  bitsLt_bf16_f32 : FTy.bits .bf16 < FTy.bits .f32
  shapeCasts_S8x128x1024_S1024x1024 : S8x128x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024x1024_S8x128x1024 : S1024x1024.ShapeCasts S8x128x1024
  shapeCasts_S1024_S1x1x1024 : S1024.ShapeCasts S1x1x1024
  broadcasts_S1x1x1024_S8x128x1024 : S1x1x1024.Broadcasts S8x128x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S8x1024_S8x1x1024 : S8x1024.ShapeCasts S8x1x1024
  broadcasts_S8x1x1024_S8x128x1024 : S8x1x1024.Broadcasts S8x128x1024
  reduces_S8x128x1024_S8x128 : S8x128x1024.Reduces [2] S8x128
  inb_S8x128_S8x128_0_0 : ∀ a, (![0, 0] : Fin 2 → Nat) a + S8x128.size a ≤ S8x128.size a
  h_S8x128 : 0 < S8x128.numel
  reducesTo_S8x4096_S8_d1 : S8x4096.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)
  dot_S8x1024_S1024x1024_S8x1024_1_0_0_1_n_n_wf : DotDims.WF S8x1024 S1024x1024 S8x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S8x4096x1024.size a
  hwx0_0 : ∀ i : grid0.Coords, EltTy.bits .f32 = 32 ∨ (Rect.block (s := S8x4096x1024) S8x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S8x1024.size a
  hwx0_3 : ∀ i : grid0.Coords, EltTy.bits .f32 = 32 ∨ (Rect.block (s := S8x1024) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x4096.size a
  hwx0_4 : ∀ i : grid0.Coords, EltTy.bits .f32 = 32 ∨ (Rect.block (s := S8x4096) S8x128.size (cc0_transform_4 i) (hinb0_4 i)).WholeWords (EltTy.packing .f32)

variable [Facts₀]

def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S8x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S1x1x1024 : Shape := ⟨3, ![1, 1, 1024]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S8x4096x1024, .f32⟩
  | .hbm, ⟨6, _⟩ => ⟨S1x1x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S1x1x1024, .f32⟩
  | .hbm, ⟨11, _⟩ => ⟨S8x4096x1024, .f32⟩
  | .hbm, ⟨12, _⟩ => ⟨S8x4096x1024, .f32⟩
  | .hbm, ⟨13, _⟩ => ⟨S8x4096x4096, .f32⟩
  | .hbm, ⟨14, _⟩ => ⟨S_, .f32⟩
  | .hbm, ⟨15, _⟩ => ⟨S8x4096, .f32⟩
  | .hbm, ⟨16, _⟩ => ⟨S_, .f32⟩
  | .hbm, ⟨17, _⟩ => ⟨S8x4096, .f32⟩
  | .hbm, ⟨18, _⟩ => ⟨S8x4096, .f32⟩
  | .hbm, ⟨19, _⟩ => ⟨S8x4096x1, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x4096, .f32⟩
  | .hbm, ⟨27, _⟩ => ⟨S8x4096x4096, .f32⟩
  | .hbm, ⟨28, _⟩ => ⟨S8x1x4096, .f32⟩
  | .hbm, ⟨29, _⟩ => ⟨S8x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  slices_S8x4096x4096_S8x1x4096_0_0_0 : S8x4096x4096.Slices ![0, 0, 0] S8x1x4096
  shapeCasts_S8x1x4096_S8x4096 : S8x1x4096.ShapeCasts S8x4096
  dot_S8x4096x1024_S1024x1024_S8x4096x1024_2_1_01_0_n_n_wf : DotDims.WF S8x4096x1024 S1024x1024 S8x4096x1024 [2] [1] [0, 1] [0] [] []
  dot_S8x4096x1024_S8x4096x1024_S8x4096x4096_2_2_1_1_0_0_wf : DotDims.WF S8x4096x1024 S8x4096x1024 S8x4096x4096 [2] [2] [1] [1] [0] [0]

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x1024_S8x4096x1024_S8x4096x4096_2_2_1_1_0_0 : DotDims S8x4096x1024 S8x4096x1024 S8x4096x4096 where
  lhsContracting := [2]
  rhsContracting := [2]
  lhsNonContracting := [1]
  rhsNonContracting := [1]
  lhsBatch := [0]
  rhsBatch := [0]
  wf := dot_S8x4096x1024_S8x4096x1024_S8x4096x4096_2_2_1_1_0_0_wf

class Facts : Prop extends Facts₀ where

variable [Facts]
-- ==== Proof.Attention.lean ====
import Idealize.ShloMosaic.PureOps.Ideal
import Idealize.ShloMosaic.PureOps.Ideal.Laws
import Idealize.ShloMosaic.Lib.ValueIdx

/-!
# Row 0 of a softmax attention map, over the extended reals

For an input `x` of shape [8, 4096, 1024], weights `Wq`, `Wk` of shape [1024, 1024] and biases `bq`, `bk` of length
1024, a linear layer sends row `(b, n)` of `x` to the vector whose entry `e` is `∑ d, x (b, n, d) * W (e, d) + bias e`.
The score of query row `n` against key row `m` in batch `b` is the inner product over `e` of the two projected rows,
and the attention map is the softmax of the scores along `m`: every score less the row's maximum, exponentiated, over
the sum of those exponentials along the row. Only query row 0 is kept: the result has shape [8, 4096].

A product of extended reals commutes, so the inner product may be written with either factor first; that is the only
law needed between the two programs compared here, and it holds at the infinities as well as at the finite values.
-/

noncomputable section

namespace Cert.Attention

open Idealize.ShloMosaic Idealize.ShloMosaic.ValueIdx

/-- The f32 word of minus infinity, from which a row's maximum is folded. -/
abbrev negInf : EReal := Ideal.ofBits .f32 0xFF800000#32

/-- The f32 word of zero, from which a row's sum of exponentials is taken. -/
abbrev zeroWord : EReal := Ideal.ofBits .f32 0x00000000#32

/-- Entry `e` of the linear layer `(W, β)` applied to row `(b, n)` of `x`. -/
def proj (x : (⟨3, ![8, 4096, 1024]⟩ : Shape).Idx → EReal) (W : (⟨2, ![1024, 1024]⟩ : Shape).Idx → EReal)
    (β : (⟨1, ![1024]⟩ : Shape).Idx → EReal) (b : Fin 8) (n : Fin 4096) (e : Fin 1024) : EReal :=
  (∑ d : Fin 1024, x (ix3 b n d) * W (ix2 e d)) + β (ix1 e)

/-- The score of query row 0 against key row `m` in batch `b`, the query's entry written first. -/
def score (x : (⟨3, ![8, 4096, 1024]⟩ : Shape).Idx → EReal) (Wq : (⟨2, ![1024, 1024]⟩ : Shape).Idx → EReal)
    (bq : (⟨1, ![1024]⟩ : Shape).Idx → EReal) (Wk : (⟨2, ![1024, 1024]⟩ : Shape).Idx → EReal)
    (bk : (⟨1, ![1024]⟩ : Shape).Idx → EReal) (b : Fin 8) (m : Fin 4096) : EReal :=
  ∑ e : Fin 1024, proj x Wq bq b 0 e * proj x Wk bk b m e

/-- The same score with the key's entry written first: each term's two factors exchanged. -/
theorem score_key_first (x : (⟨3, ![8, 4096, 1024]⟩ : Shape).Idx → EReal) (Wq : (⟨2, ![1024, 1024]⟩ : Shape).Idx → EReal)
    (bq : (⟨1, ![1024]⟩ : Shape).Idx → EReal) (Wk : (⟨2, ![1024, 1024]⟩ : Shape).Idx → EReal)
    (bk : (⟨1, ![1024]⟩ : Shape).Idx → EReal) (b : Fin 8) (m : Fin 4096) :
    (∑ e : Fin 1024, proj x Wk bk b m e * proj x Wq bq b 0 e) = score x Wq bq Wk bk b m :=
  Finset.sum_congr rfl fun _ _ => mul_comm _ _

/-- The maximum of a row of 4096 scores, folded from minus infinity and then taken against minus infinity once more. -/
def rowMax (s : Fin 4096 → EReal) : EReal := max negInf (Finset.univ.fold max negInf s)

/-- Entry `m` of the softmax of a row of 4096 scores. -/
def rowSoftmax (s : Fin 4096 → EReal) (m : Fin 4096) : EReal :=
  Ideal.div (Ideal.exp (s m - rowMax s)) (zeroWord + ∑ k : Fin 4096, Ideal.exp (s k - rowMax s))

/-- Row 0 of the attention map: at `(b, m)` the softmax, along `m`, of query row 0's scores in batch `b`. -/
def attnRow0 (x : (⟨3, ![8, 4096, 1024]⟩ : Shape).Idx → EReal) (Wq : (⟨2, ![1024, 1024]⟩ : Shape).Idx → EReal)
    (bq : (⟨1, ![1024]⟩ : Shape).Idx → EReal) (Wk : (⟨2, ![1024, 1024]⟩ : Shape).Idx → EReal)
    (bk : (⟨1, ![1024]⟩ : Shape).Idx → EReal) : (⟨2, ![8, 4096]⟩ : Shape).Idx → EReal :=
  fun i => rowSoftmax (score x Wq bq Wk bk (i 0)) (i 1)

end Cert.Attention

end
-- ==== Proof.ReferenceValue.lean ====
import proofs.«138521_j20126216750030_1_alg».proof.Proof.Gen.ReferenceIdeal.Read
import proofs.«138521_j20126216750030_1_alg».proof.Proof.Attention
import Idealize.ShloMosaic.Lib.IdealHost

/-!
# The reference computes row 0 of the attention map

The reference projects every row of `x` to a query and to a key, takes all 4096 × 4096 scores of each batch, applies
the softmax along the keys and keeps query row 0. Read one operation at a time: a projected entry is
`Cert.Attention.proj`; the score at `(b, n, m)` is the sum over `e` of query entry times key entry; the row maximum at
`(b, n)` is a fold of `max` over the 4096 coordinates of the last axis, in any order; the shifted exponential, its row
sum and the quotient follow entry by entry; and the final slice and reshape read `(b, 0, m)`.
-/

noncomputable section

namespace Cert.ReferenceIdeal.RefValue

open Idealize.ShloMosaic Idealize.ShloMosaic.ValueIdx Cert.ReferenceIdeal Cert.ReferenceIdeal.Gen Cert.ReferenceIdeal.Read
open Cert.Attention

variable (x0 : (⟨S8x4096x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal))

/-! ## The index maps of the read-at-an-index lemmas, at indices given by coordinates -/

theorem lidx_v0 (b : Fin 8) (n : Fin 4096) (e k : Fin 1024) : lidx_main_v0 (ix3 b n e) k = ix3 b n k :=
  funext fun a => Fin.ext (by match a with | ⟨0, _⟩ => rfl | ⟨1, _⟩ => rfl | ⟨2, _⟩ => rfl)
theorem ridx_v0 (b : Fin 8) (n : Fin 4096) (e k : Fin 1024) : ridx_main_v0 (ix3 b n e) k = ix2 e k :=
  funext fun a => Fin.ext (by match a with | ⟨0, _⟩ => rfl | ⟨1, _⟩ => rfl)
theorem idx_v21 (b : Fin 8) (n : Fin 4096) (e : Fin 1024) : idx_main_v1 (idx_main_v2 (ix3 b n e)) = ix1 e :=
  funext fun a => Fin.ext (by match a with | ⟨0, _⟩ => rfl)
theorem lidx_v8 (b : Fin 8) (n m : Fin 4096) (e : Fin 1024) : lidx_main_v8 (ix3 b n m) e = ix3 b n e :=
  funext fun a => Fin.ext (by match a with | ⟨0, _⟩ => rfl | ⟨1, _⟩ => rfl | ⟨2, _⟩ => rfl)
theorem ridx_v8 (b : Fin 8) (n m : Fin 4096) (e : Fin 1024) : ridx_main_v8 (ix3 b n m) e = ix3 b m e :=
  funext fun a => Fin.ext (by match a with | ⟨0, _⟩ => rfl | ⟨1, _⟩ => rfl | ⟨2, _⟩ => rfl)
theorem idx_v1213 (b : Fin 8) (n m : Fin 4096) : idx_main_v12 (idx_main_v13 (ix3 b n m)) = ix2 b n :=
  funext fun a => Fin.ext (by match a with | ⟨0, _⟩ => rfl | ⟨1, _⟩ => rfl)
theorem idx_v1718 (b : Fin 8) (n m : Fin 4096) : idx_main_v17 (idx_main_v18 (ix3 b n m)) = ix2 b n :=
  funext fun a => Fin.ext (by match a with | ⟨0, _⟩ => rfl | ⟨1, _⟩ => rfl)
theorem idx_v16 (b : Fin 8) (n k : Fin 4096) : idx_main_v16 (ix2 b n) k = ix3 b n k :=
  funext fun a => Fin.ext (by match a with | ⟨0, _⟩ => rfl | ⟨1, _⟩ => rfl | ⟨2, _⟩ => rfl)
theorem idx_v2021 (b : Fin 8) (m : Fin 4096) : idx_main_v20 (idx_main_v21 (ix2 b m)) = ix3 b (0 : Fin 4096) m :=
  funext fun a => Fin.ext (by
    have hm := m.isLt
    match a with
    | ⟨0, _⟩ => show (b.val * 4096 + m.val) / 4096 = b.val; omega
    | ⟨1, _⟩ => rfl
    | ⟨2, _⟩ => show (b.val * 4096 + m.val) % 4096 = m.val; omega)

/-! ## The stages -/

/-- A projected query entry. -/
theorem query_apply (b : Fin 8) (n : Fin 4096) (e : Fin 1024) :
    val_main_v3 (F := Ideal) x0 x1 x2 (ix3 b n e) = proj x0 x1 x2 b n e := by
  rw [val_main_v3_apply, val_main_v0_apply, val_main_v2_apply, val_main_v1_apply, idx_v21]
  simp only [lidx_v0, ridx_v0]
  rfl

/-- The keys are projected by the same lines as the queries, with the other weights and bias. -/
theorem key_eq : val_main_v7 (F := Ideal) x0 x3 x4 = val_main_v3 (F := Ideal) x0 x3 x4 := rfl

/-- The score of query row `n` against key row `m`. -/
theorem scores_apply (b : Fin 8) (n m : Fin 4096) :
    val_main_v8 (F := Ideal) x0 x1 x2 x3 x4 (ix3 b n m) = ∑ e : Fin 1024, proj x0 x1 x2 b n e * proj x0 x3 x4 b m e := by
  rw [val_main_v8_apply]
  refine Finset.sum_congr rfl fun e _ => ?_
  rw [lidx_v8, ridx_v8, key_eq, query_apply, query_apply]

/-- The maximum of row `(b, n)` of the scores. -/
theorem rowMax_apply (b : Fin 8) (n : Fin 4096) :
    val_main_v11 (F := Ideal) x0 x1 x2 x3 x4 (ix2 b n)
      = rowMax fun k => val_main_v8 (F := Ideal) x0 x1 x2 x3 x4 (ix3 b n k) := by
  have hR : S8x4096x4096.Reduces [2] S8x4096 := by decide
  rw [val_main_v11_apply, val_main_v10_apply, val_main_cst_0_apply]
  unfold val_main_v9
  rw [Host.reduce_eq_fold_single FloatOps.maximumf _ _ reducesTo_S8x4096x4096_S8x4096_d2 hR h_S_ (ix2 b n)]
  have hl : (val_main_v8 (F := Ideal) x0 x1 x2 x3 x4 ∘ hR.lift (ix2 b n) : Fin 4096 → EReal)
      = fun k => val_main_v8 (F := Ideal) x0 x1 x2 x3 x4 (ix3 b n k) :=
    funext fun k => congrArg (val_main_v8 (F := Ideal) x0 x1 x2 x3 x4)
      (funext fun a => Fin.ext (by match a with | ⟨0, _⟩ => rfl | ⟨1, _⟩ => rfl | ⟨2, _⟩ => rfl))
  exact congrArg (fun f : Fin 4096 → EReal => max negInf ((Finset.univ : Finset (Fin 4096)).fold max negInf f)) hl

/-- A score less its row's maximum, exponentiated. -/
theorem shiftedExp_apply (b : Fin 8) (n m : Fin 4096) :
    val_main_v15 (F := Ideal) x0 x1 x2 x3 x4 (ix3 b n m)
      = Ideal.exp (val_main_v8 (F := Ideal) x0 x1 x2 x3 x4 (ix3 b n m)
          - rowMax fun k => val_main_v8 (F := Ideal) x0 x1 x2 x3 x4 (ix3 b n k)) := by
  rw [val_main_v15_apply, val_main_v14_apply, val_main_v13_apply, val_main_v12_apply, idx_v1213, rowMax_apply]
  rfl

/-- The softmax of row `(b, n)` of the scores, at `m`. -/
theorem softmax_apply (b : Fin 8) (n m : Fin 4096) :
    val_main_v19 (F := Ideal) x0 x1 x2 x3 x4 (ix3 b n m)
      = rowSoftmax (fun k => val_main_v8 (F := Ideal) x0 x1 x2 x3 x4 (ix3 b n k)) m := by
  rw [val_main_v19_apply, val_main_v18_apply, val_main_v17_apply, idx_v1718, val_main_v16_apply, shiftedExp_apply]
  unfold rowSoftmax
  refine congrArg (Ideal.div _) (congrArg (zeroWord + ·) ?_)
  refine Finset.sum_congr rfl fun k _ => ?_
  rw [idx_v16, shiftedExp_apply]

/-- THE REFERENCE'S RESULT is row 0 of the attention map. -/
theorem result_eq : val_main_v21 (F := Ideal) x0 x1 x2 x3 x4 = attnRow0 x0 x1 x2 x3 x4 := by
  funext i
  obtain ⟨b, m, rfl⟩ : ∃ (b : Fin 8) (m : Fin 4096), i = ix2 b m := ⟨i 0, i 1, eq_ix2 i⟩
  rw [val_main_v21_apply, val_main_v20_apply, idx_v2021, softmax_apply]
  show rowSoftmax _ m = rowSoftmax (score x0 x1 x2 x3 x4 b) m
  exact congrArg (fun s => rowSoftmax s m) (funext fun k => scores_apply x0 x1 x2 x3 x4 b 0 k)

end Cert.ReferenceIdeal.RefValue

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.ScoreTile.lean ====
import proofs.«138521_j20126216750030_1_alg».proof.Proof.Gen.KernelIdeal.Skeleton
import proofs.«138521_j20126216750030_1_alg».proof.Proof.LibPlainProduct
import Idealize.ShloMosaic.Lib.Pipeline.Value
import Idealize.ShloMosaic.Lib.ValueIdx
import Idealize.ShloMosaic.PureOps.Ideal.Laws

/-!
# What the kernel body computes from its four blocks, entry by entry

The body reads a tile of `x` of shape [8, 128, 1024], the transposed key weights [1024, 1024], the key bias [1024] and
the projected query row [8, 1024]. It flattens the tile to 1024 rows — row `b * 128 + r` of the flat matrix is row
`(b, r)` of the tile —, multiplies by the transposed weights, restores the three axes, adds the bias along the last
axis, multiplies by the query row of the same batch and sums along the last axis. A change of float format is the
identity on the extended reals, so at `(b, r)` the result is
`∑ e, ((∑ d, x (b, r, d) * wT (d, e)) + bias e) * q0 (b, e)`.
-/

noncomputable section

namespace Cert.KernelIdeal.ScoreTile

open Idealize.ShloMosaic Idealize.ShloMosaic.ValueIdx Cert.KernelIdeal Cert.KernelIdeal.Gen

/-- The printed record of the tile's product contracts the left operand's columns with the right operand's rows and
    has no batch axis: the plain product of two 1024 × 1024 matrices. -/
theorem dot_plain : dot_S1024x1024_S1024x1024_S1024x1024_1_0_0_1_n_n = DotDims.plain 1024 1024 1024 := rfl

/-- Row `(b, r)` of the tile, as a row of the flattened tile. -/
def flatRow (b : Fin 8) (r : Fin 128) : Fin 1024 :=
  ⟨b.val * 128 + r.val, by have := b.isLt; have := r.isLt; omega⟩

/-- The projected keys of the tile, before the bias: the tile flattened, times the transposed weights, unflattened. -/
def keyTile (x0 : Vec Ideal S8x128x1024 .f32) (x1 : Vec Ideal S1024x1024 .f32) : FVec Ideal S8x128x1024 .f32 :=
  shapeCast S8x128x1024
    (matmul dot_S1024x1024_S1024x1024_S1024x1024_1_0_0_1_n_n none
      (shapeCast S1024x1024 (truncf .bf16 x0 bitsLt_bf16_f32) shapeCasts_S8x128x1024_S1024x1024)
      (truncf .bf16 (shapeCast S1024x1024 x1 shapeCasts_S1024x1024_S1024x1024) bitsLt_bf16_f32)
      (constant S1024x1024 .f32 0x00000000#32))
    shapeCasts_S1024x1024_S8x128x1024

/-- The bias laid along the last axis of the tile. -/
def biasTile (x2 : Vec Ideal S1024 .f32) : FVec Ideal S8x128x1024 .f32 :=
  broadcastTo S8x128x1024 (shapeCast S1x1x1024 x2 shapeCasts_S1024_S1x1x1024) broadcasts_S1x1x1024_S8x128x1024

/-- The query row of each batch laid across the 128 rows of the tile. -/
def queryTile (x3 : Vec Ideal S8x1024 .f32) : FVec Ideal S8x128x1024 .f32 :=
  broadcastTo S8x128x1024
    (shapeCast S8x1x1024 (shapeCast S8x1024 x3 shapeCasts_S8x1024_S8x1024) shapeCasts_S8x1024_S8x1x1024)
    broadcasts_S8x1x1024_S8x128x1024

/-- The body's one stored value is the sum along the last axis of (keys + bias) * query. -/
theorem pay_eq (x0 : Vec Ideal S8x128x1024 .f32) (x1 : Vec Ideal S1024x1024 .f32) (x2 : Vec Ideal S1024 .f32)
    (x3 : Vec Ideal S8x1024 .f32) :
    k0_pay1 (F := Ideal) x0 x1 x2 x3
      = multiReduction .add [2] S8x128 (mulf (addf (keyTile x0 x1) (biasTile x2)) (queryTile x3)) 0x00000000#32
          reduces_S8x128x1024_S8x128 (.inl rfl) rfl := rfl

theorem keyTile_apply (x0 : Vec Ideal S8x128x1024 .f32) (x1 : Vec Ideal S1024x1024 .f32) (b : Fin 8) (r : Fin 128)
    (e : Fin 1024) : keyTile x0 x1 (ix3 b r e) = ∑ d : Fin 1024, x0 (ix3 b r d) * x1 (ix2 d e) := by
  unfold keyTile
  refine (shapeCast_apply _ shapeCasts_S1024x1024_S8x128x1024 (ix3 b r e) (ix2 (flatRow b r) e) (by
    rw [Shape.rowMajor_val_two, Shape.rowMajor_val_three]; rfl)).trans ?_
  rw [PlainProduct.matmul_at _ dot_plain, constant_apply, Ideal.ofBits_zero_f32, zero_add]
  refine Finset.sum_congr rfl fun d _ => ?_
  rw [truncf_apply, shapeCast_self]
  refine congrArg (· * x1 (ix2 d e)) ?_
  refine (shapeCast_apply _ shapeCasts_S8x128x1024_S1024x1024 (ix2 (flatRow b r) d) (ix3 b r d) (by
    rw [Shape.rowMajor_val_two, Shape.rowMajor_val_three]; rfl)).trans ?_
  rfl

theorem biasTile_apply (x2 : Vec Ideal S1024 .f32) (b : Fin 8) (r : Fin 128) (e : Fin 1024) :
    biasTile x2 (ix3 b r e) = x2 (ix1 e) := by
  unfold biasTile
  refine (broadcastTo_apply _ broadcasts_S1x1x1024_S8x128x1024 (ix3 b r e) (ix3 (0 : Fin 1) (0 : Fin 1) e) (fun a =>
    match a with
    | ⟨0, _⟩ => by show 0 = if (1 : Nat) = 1 then 0 else _; rw [if_pos rfl]
    | ⟨1, _⟩ => by show 0 = if (1 : Nat) = 1 then 0 else _; rw [if_pos rfl]
    | ⟨2, _⟩ => by show e.val = if (1024 : Nat) = 1 then 0 else e.val; rw [if_neg (by decide)])).trans ?_
  exact shapeCast_apply _ shapeCasts_S1024_S1x1x1024 (ix3 (0 : Fin 1) (0 : Fin 1) e) (ix1 e) (by
    rw [Shape.rowMajor_val_one, Shape.rowMajor_val_three]; show e.val = (0 * 1 + 0) * 1024 + e.val; omega)

theorem queryTile_apply (x3 : Vec Ideal S8x1024 .f32) (b : Fin 8) (r : Fin 128) (e : Fin 1024) :
    queryTile x3 (ix3 b r e) = x3 (ix2 b e) := by
  unfold queryTile
  refine (broadcastTo_apply _ broadcasts_S8x1x1024_S8x128x1024 (ix3 b r e) (ix3 b (0 : Fin 1) e) (fun a =>
    match a with
    | ⟨0, _⟩ => by show b.val = if (8 : Nat) = 1 then 0 else b.val; rw [if_neg (by decide)]
    | ⟨1, _⟩ => by show 0 = if (1 : Nat) = 1 then 0 else _; rw [if_pos rfl]
    | ⟨2, _⟩ => by show e.val = if (1024 : Nat) = 1 then 0 else e.val; rw [if_neg (by decide)])).trans ?_
  rw [shapeCast_self]
  exact shapeCast_apply _ shapeCasts_S8x1024_S8x1x1024 (ix3 b (0 : Fin 1) e) (ix2 b e) (by
    rw [Shape.rowMajor_val_two, Shape.rowMajor_val_three]; show b.val * 1024 + e.val = (b.val * 1 + 0) * 1024 + e.val; omega)

/-- THE BODY'S STORED VALUE AT `(b, r)`. -/
theorem pay_apply (x0 : Vec Ideal S8x128x1024 .f32) (x1 : Vec Ideal S1024x1024 .f32) (x2 : Vec Ideal S1024 .f32)
    (x3 : Vec Ideal S8x1024 .f32) (b : Fin 8) (r : Fin 128) :
    k0_pay1 (F := Ideal) x0 x1 x2 x3 (ix2 b r)
      = ∑ e : Fin 1024, ((∑ d : Fin 1024, x0 (ix3 b r d) * x1 (ix2 d e)) + x2 (ix1 e)) * x3 (ix2 b e) := by
  rw [pay_eq]
  refine (Ideal.multiReduction_add_single _ _ reduces_S8x128x1024_S8x128 _ _ (ix2 b r)).trans ?_
  show (∑ e : Fin 1024, mulf (addf (keyTile x0 x1) (biasTile x2)) (queryTile x3)
    (reduces_S8x128x1024_S8x128.lift (ix2 b r) e)) = _
  refine Finset.sum_congr rfl fun (e : Fin 1024) _ => ?_
  rw [show reduces_S8x128x1024_S8x128.lift (ix2 b r) e = ix3 b r e from
    funext fun a => Fin.ext (by match a with | ⟨0, _⟩ => rfl | ⟨1, _⟩ => rfl | ⟨2, _⟩ => rfl)]
  rw [mulf_apply, addf_apply, keyTile_apply, biasTile_apply, queryTile_apply]

end Cert.KernelIdeal.ScoreTile

end
-- ==== Proof.SoftmaxRows.lean ====
import Idealize.ShloMosaic.Lib.Pipeline.Value
import Idealize.ShloMosaic.Lib.ValueIdx
import Idealize.ShloMosaic.Lib.IdealHost
import Idealize.ShloMosaic.PureOps.Ideal.Laws
import proofs.«138521_j20126216750030_1_alg».proof.Proof.Attention

/-!
# The host's softmax along the last axis of an [8, 4096] array, read at an index

The host computes a softmax in eight lines: the maximum of each row folded from minus infinity, taken once more
against a broadcast minus infinity, broadcast back as a column and then across the row, subtracted, exponentiated;
the exponentials summed along each row from zero, the sums broadcast back the same way, and the quotient. At
`(b, m)` this is `Cert.Attention.rowSoftmax` of row `b`, at `m`: a maximum folded over a row does not depend on the
order of the fold, and the sum over a row is a sum over its 4096 coordinates.
-/

noncomputable section

namespace Cert.SoftmaxRows

open Idealize.ShloMosaic Idealize.ShloMosaic.ValueIdx Cert.Attention

abbrev S_ : Shape := ⟨0, ![]⟩
abbrev S8 : Shape := ⟨1, ![8]⟩
abbrev S8x1 : Shape := ⟨2, ![8, 1]⟩
abbrev S8x4096 : Shape := ⟨2, ![8, 4096]⟩

section
variable (hred : S8x4096.ReducesTo [1] S8) (hu : 0 < S_.numel)
  (hb0 : S_.BroadcastsInDim S8 (![] : Fin 0 → Fin S8.rank))
  (hb1 : S8.BroadcastsInDim S8x1 (![0] : Fin 1 → Fin S8x1.rank))
  (hb2 : S8x1.BroadcastsInDim S8x4096 (![0, 1] : Fin 2 → Fin S8x4096.rank))

/-- The rows' maxima: the fold from minus infinity, then the maximum with a broadcast minus infinity. -/
def maxima (s : FVec Ideal S8x4096 .f32) : FVec Ideal S8 .f32 :=
  maximumf (broadcastInDim S8 ![] hb0 (constant (F := Ideal) S_ .f32 0xFF800000#32))
    (Host.reduce FloatOps.maximumf s (constant (F := Ideal) S_ .f32 0xFF800000#32) hred hu)

/-- Each score less its row's maximum, exponentiated. -/
def shiftedExp (s : FVec Ideal S8x4096 .f32) : FVec Ideal S8x4096 .f32 :=
  Host.exp (subf s (broadcastInDim S8x4096 ![0, 1] hb2 (broadcastInDim S8x1 ![0] hb1 (maxima hred hu hb0 s))))

/-- The eight lines, as one function of the array of scores. -/
def softmaxLines (s : FVec Ideal S8x4096 .f32) : FVec Ideal S8x4096 .f32 :=
  Host.divf (shiftedExp hred hu hb0 hb1 hb2 s)
    (broadcastInDim S8x4096 ![0, 1] hb2 (broadcastInDim S8x1 ![0] hb1
      (Host.reduceAdd (shiftedExp hred hu hb0 hb1 hb2 s) (constant (F := Ideal) S_ .f32 0x00000000#32) hred hu)))

/-- A column `[8]` broadcast to `[8, 1]` and then across `[8, 4096]` reads, at `(b, m)`, the column at `b`. -/
theorem column_across_apply {α : Type} (v : S8.Idx → α) (b : Fin 8) (m : Fin 4096) :
    broadcastInDim S8x4096 ![0, 1] hb2 (broadcastInDim S8x1 ![0] hb1 v) (ix2 b m) = v (ix1 b) := by
  refine (broadcastInDim_apply _ hb2 _ (ix2 b m) (ix2 b (0 : Fin 1)) (fun a => match a with
    | ⟨0, _⟩ => by show b.val = if (8 : Nat) = 1 then 0 else b.val; rw [if_neg (by decide)]
    | ⟨1, _⟩ => by show 0 = if (1 : Nat) = 1 then 0 else m.val; rw [if_pos rfl])).trans ?_
  exact broadcastInDim_apply _ hb1 v (ix2 b (0 : Fin 1)) (ix1 b) (fun a => match a with
    | ⟨0, _⟩ => by show b.val = if (8 : Nat) = 1 then 0 else b.val; rw [if_neg (by decide)])

/-- The maxima at `b`: the row's maximum. -/
theorem maxima_apply (s : FVec Ideal S8x4096 .f32) (b : Fin 8) :
    maxima hred hu hb0 s (ix1 b) = rowMax fun k => s (ix2 b k) := by
  have hR : S8x4096.Reduces [1] S8 := by decide
  unfold maxima
  rw [maximumf_apply, broadcastInDim_scalar_apply, Host.reduce_eq_fold_single FloatOps.maximumf s _ hred hR hu (ix1 b)]
  have hl : (s ∘ hR.lift (ix1 b) : Fin 4096 → EReal) = fun k => s (ix2 b k) :=
    funext fun k => congrArg s (funext fun a => Fin.ext (by match a with | ⟨0, _⟩ => rfl | ⟨1, _⟩ => rfl))
  exact congrArg (fun f : Fin 4096 → EReal => max negInf ((Finset.univ : Finset (Fin 4096)).fold max negInf f)) hl

/-- The shifted exponentials at `(b, k)`. -/
theorem shiftedExp_apply (s : FVec Ideal S8x4096 .f32) (b : Fin 8) (k : Fin 4096) :
    shiftedExp hred hu hb0 hb1 hb2 s (ix2 b k) = Ideal.exp (s (ix2 b k) - rowMax fun k' => s (ix2 b k')) := by
  have e1 : ∀ (x : FVec Ideal S8x4096 .f32) (i : S8x4096.Idx), Host.exp x i = Ideal.exp (x i) := fun _ _ => rfl
  unfold shiftedExp
  rw [e1, subf_apply, column_across_apply hb1 hb2 _ b k, maxima_apply hred hu hb0 s b]

/-- THE SOFTMAX LINES AT AN INDEX. -/
theorem softmaxLines_apply (s : FVec Ideal S8x4096 .f32) (b : Fin 8) (m : Fin 4096) :
    softmaxLines hred hu hb0 hb1 hb2 s (ix2 b m) = rowSoftmax (fun k => s (ix2 b k)) m := by
  have hR : S8x4096.Reduces [1] S8 := by decide
  unfold softmaxLines
  rw [hostDivf_apply, shiftedExp_apply hred hu hb0 hb1 hb2 s b m, column_across_apply hb1 hb2 _ b m,
    hostReduceAdd_apply, Ideal.hostReduceAdd_single hred hR]
  unfold rowSoftmax
  refine congrArg (Ideal.div _) (congrArg (zeroWord + ·) ?_)
  refine Finset.sum_congr rfl fun k _ => ?_
  rw [show hR.lift (ix1 b) k = ix2 b k from
    funext fun a => Fin.ext (by match a with | ⟨0, _⟩ => rfl | ⟨1, _⟩ => rfl)]
  exact shiftedExp_apply hred hu hb0 hb1 hb2 s b k

end

end Cert.SoftmaxRows

end
-- ==== Proof.KernelValue.lean ====
import proofs.«138521_j20126216750030_1_alg».proof.Proof.Gen.KernelIdeal.Frame
import proofs.«138521_j20126216750030_1_alg».proof.Proof.ScoreTile
import proofs.«138521_j20126216750030_1_alg».proof.Proof.SoftmaxRows
import proofs.«138521_j20126216750030_1_alg».proof.Proof.Attention
import Idealize.ShloMosaic.Lib.Pipeline.Value
import Idealize.ShloMosaic.Lib.ValueLayout
import Idealize.ShloMosaic.Lib.StableHlo.Run

/-!
# The kernel computes row 0 of the attention map

Before the launch the host projects row 0 of every batch to a query row (an [8, 1024] array) and transposes the key
weights. The launch walks 32 tiles of 128 key rows; at tile `t` the body writes, at `(b, r)`, the inner product of the
projected key row `(b, 128 t + r)` with the query row of batch `b`. The 32 blocks tile the [8, 4096] array of scores,
so after the launch the array holds at `(b, n)` the score of query row 0 against key row `n`, each term written with the
key's factor first. After the launch the host applies the softmax along the last axis.
-/

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx Idealize.ShloMosaic.StableHlo Cert.Attention

variable (m : (ℓ : Loc nD τ sig) → Buf (Elt Ideal) ℓ) (ρ : Dev nD → PrngReg)

/-! ## The host lines before the launch -/

/-- The query rows: row 0 of every batch of `x`, times the transposed query weights, plus the query bias. -/
def queryRow0 (x : FVec Ideal S8x4096x1024 .f32) (Wq : FVec Ideal S1024x1024 .f32) (bq : FVec Ideal S1024 .f32) : FVec Ideal S8x1024 .f32 :=
  addf
    (Host.dotGeneral dot_S8x1024_S1024x1024_S8x1024_1_0_0_1_n_n none
      (shapeCast S8x1024 (extractStridedSlice S8x1x1024 ![0, 0, 0] x slices_S8x4096x1024_S8x1x1024_0_0_0) shapeCasts_S8x1x1024_S8x1024)
      (transpose S1024x1024 [1, 0] Wq transposes_S1024x1024_S1024x1024_1_0))
    (broadcastInDim S8x1024 ![0, 1] bcast_S1x1024_S8x1024_0_1 (broadcastInDim S1x1024 ![1] bcast_S1024_S1x1024_1 bq))

/-- The launch finds the transposed key weights in its second window's array. -/
theorem V_keyWeightsT (c : Dev nD) :
    (V m c main_v7 : S1024x1024.Idx → EReal)
      = transpose S1024x1024 [1, 0] (m ((c : Thread nD τ).loc main_arg3)) transposes_S1024x1024_S1024x1024_1_0 := by
  show StableHlo.after hostOps0 (fun b => m (c, b)) (Proc.devRef .tc main_v7) = _
  after_results

/-- The launch finds the query rows in its fourth window's array. -/
theorem V_queryRow0 (c : Dev nD) :
    (V m c main_v6 : S8x1024.Idx → EReal)
      = queryRow0 (m ((c : Thread nD τ).loc main_arg0)) (m ((c : Thread nD τ).loc main_arg1)) (m ((c : Thread nD τ).loc main_arg2)) := by
  show StableHlo.after hostOps0 (fun b => m (c, b)) (Proc.devRef .tc main_v6) = _
  after_results
  rfl

/-- The printed record of the host's product is the plain product of an 8 × 1024 by a 1024 × 1024 matrix. -/
theorem dot_host_plain : dot_S8x1024_S1024x1024_S8x1024_1_0_0_1_n_n = DotDims.plain 8 1024 1024 := rfl

/-- A query row's entry is the projected entry of row 0. -/
theorem queryRow0_apply (x : FVec Ideal S8x4096x1024 .f32) (Wq : FVec Ideal S1024x1024 .f32) (bq : FVec Ideal S1024 .f32)
    (b : Fin 8) (e : Fin 1024) : queryRow0 x Wq bq (ix2 b e) = proj x Wq bq b 0 e := by
  unfold queryRow0 proj
  rw [addf_apply, PlainProduct.dotGeneral_at _ dot_host_plain]
  refine congr (congrArg HAdd.hAdd (Finset.sum_congr rfl fun d _ => ?_)) ?_
  · rw [transpose_ix2_apply]
    refine congrArg (· * Wq (ix2 e d)) ?_
    refine (shapeCast_apply _ shapeCasts_S8x1x1024_S8x1024 (ix2 b d) (ix3 b (0 : Fin 1) d) (by
      rw [Shape.rowMajor_val_two, Shape.rowMajor_val_three]; show (b.val * 1 + 0) * 1024 + d.val = b.val * 1024 + d.val; omega)).trans ?_
    exact extractStridedSlice_apply _ x slices_S8x4096x1024_S8x1x1024_0_0_0 (ix3 b (0 : Fin 1) d) (ix3 b (0 : Fin 4096) d)
      (fun a => match a with
        | ⟨0, _⟩ => by show b.val = 0 + b.val; omega
        | ⟨1, _⟩ => by show 0 = 0 + 0; rfl
        | ⟨2, _⟩ => by show d.val = 0 + d.val; omega)
  · refine (broadcastInDim_apply _ bcast_S1x1024_S8x1024_0_1 _ (ix2 b e) (ix2 (0 : Fin 1) e) (fun a => match a with
      | ⟨0, _⟩ => by show 0 = if (1 : Nat) = 1 then 0 else b.val; rw [if_pos rfl]
      | ⟨1, _⟩ => by show e.val = if (1024 : Nat) = 1 then 0 else e.val; rw [if_neg (by decide)])).trans ?_
    exact broadcastInDim_apply _ bcast_S1024_S1x1024_1 bq (ix2 (0 : Fin 1) e) (ix1 e) (fun a => match a with
      | ⟨0, _⟩ => by show e.val = if (1024 : Nat) = 1 then 0 else e.val; rw [if_neg (by decide)])

/-! ## The array of scores the launch leaves -/

/-- The score at `(b, n)` from the arrays the launch reads: `x`, the transposed key weights, the key bias, the query rows. -/
def scoreAt (X : S8x4096x1024.Idx → EReal) (WT : S1024x1024.Idx → EReal) (β : S1024.Idx → EReal) (Q0 : S8x1024.Idx → EReal)
    (b : Fin 8) (n : Fin 4096) : EReal :=
  ∑ e : Fin 1024, ((∑ d : Fin 1024, X (ix3 b n d) * WT (ix2 d e)) + β (ix1 e)) * Q0 (ix2 b e)

def scoreArr (X : S8x4096x1024.Idx → EReal) (WT : S1024x1024.Idx → EReal) (β : S1024.Idx → EReal) (Q0 : S8x1024.Idx → EReal) :
    S8x4096.Idx → EReal := fun i => scoreAt X WT β Q0 (i 0) (i 1)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the tile of `x` and the block of scores move together along the key rows, at
    tile `t`; every other block index is zero. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- The tile of `x` at point `t` holds key rows `128 t … 128 t + 127` of every batch. -/
theorem tile_apply (c : Dev nD) (t : Fin cfg0.N) (b : Fin 8) (r : Fin 128) (d : Fin 1024) (n : Fin 4096)
    (hn : n.val = t.val * 128 + r.val) :
    (iblk m c 0 t : Vec Ideal S8x128x1024 .f32) (ix3 b r d) = (V m c main_arg0 : S8x4096x1024.Idx → EReal) (ix3 b n d) := by
  obtain ⟨e0, e1, e2, -⟩ := idx_facts t
  unfold iblk
  rw [View.read_apply]
  show (V m c main_arg0 : S8x4096x1024.Idx → EReal) _ = (V m c main_arg0 : S8x4096x1024.Idx → EReal) _
  refine congrArg (V m c main_arg0 : S8x4096x1024.Idx → EReal) (funext fun a => Fin.ext ?_)
  match a with
  | ⟨0, _⟩ => show win0_0.index t (0 : Fin 3) * 8 + 1 * b.val = b.val; omega
  | ⟨1, _⟩ => show win0_0.index t (1 : Fin 3) * 128 + 1 * r.val = n.val; omega
  | ⟨2, _⟩ => show win0_0.index t (2 : Fin 3) * 1024 + 1 * d.val = d.val; omega

/-- The other three windows' blocks are their whole arrays at every point. -/
theorem weights_apply (c : Dev nD) (t : Fin cfg0.N) (d e : Fin 1024) :
    (iblk m c 1 t : Vec Ideal S1024x1024 .f32) (ix2 d e) = (V m c main_v7 : S1024x1024.Idx → EReal) (ix2 d e) := by
  obtain ⟨-, -, -, e0, e1, -⟩ := idx_facts t
  unfold iblk
  rw [View.read_apply]
  show (V m c main_v7 : S1024x1024.Idx → EReal) _ = (V m c main_v7 : S1024x1024.Idx → EReal) _
  refine congrArg (V m c main_v7 : S1024x1024.Idx → EReal) (funext fun a => Fin.ext ?_)
  match a with
  | ⟨0, _⟩ => show win0_1.index t (0 : Fin 2) * 1024 + 1 * d.val = d.val; omega
  | ⟨1, _⟩ => show win0_1.index t (1 : Fin 2) * 1024 + 1 * e.val = e.val; omega

theorem bias_apply (c : Dev nD) (t : Fin cfg0.N) (e : Fin 1024) :
    (iblk m c 2 t : Vec Ideal S1024 .f32) (ix1 e) = (V m c main_arg4 : S1024.Idx → EReal) (ix1 e) := by
  obtain ⟨-, -, -, -, -, e0, -⟩ := idx_facts t
  unfold iblk
  rw [View.read_apply]
  show (V m c main_arg4 : S1024.Idx → EReal) _ = (V m c main_arg4 : S1024.Idx → EReal) _
  refine congrArg (V m c main_arg4 : S1024.Idx → EReal) (funext fun a => Fin.ext ?_)
  match a with
  | ⟨0, _⟩ => show win0_2.index t (0 : Fin 1) * 1024 + 1 * e.val = e.val; omega

theorem query_apply (c : Dev nD) (t : Fin cfg0.N) (b : Fin 8) (e : Fin 1024) :
    (iblk m c 3 t : Vec Ideal S8x1024 .f32) (ix2 b e) = (V m c main_v6 : S8x1024.Idx → EReal) (ix2 b e) := by
  obtain ⟨-, -, -, -, -, -, e0, e1, -⟩ := idx_facts t
  unfold iblk
  rw [View.read_apply]
  show (V m c main_v6 : S8x1024.Idx → EReal) _ = (V m c main_v6 : S8x1024.Idx → EReal) _
  refine congrArg (V m c main_v6 : S8x1024.Idx → EReal) (funext fun a => Fin.ext ?_)
  match a with
  | ⟨0, _⟩ => show win0_3.index t (0 : Fin 2) * 8 + 1 * b.val = b.val; omega
  | ⟨1, _⟩ => show win0_3.index t (1 : Fin 2) * 1024 + 1 * e.val = e.val; omega

/-- What the body stores at place `y` of its block at point `t` is the score at the place `i` of the array under it. -/
theorem stored_eq (c : Dev nD) (t : Fin cfg0.N) (y : S8x128.Idx) (i : S8x4096.Idx) (hi0 : (i 0).val = (y 0).val)
    (hi1 : (i 1).val = t.val * 128 + (y 1).val) :
    k0_pay1 (F := Ideal) (iblk m c 0 t) (iblk m c 1 t) (iblk m c 2 t) (iblk m c 3 t) y
      = scoreArr (V m c main_arg0) (V m c main_v7) (V m c main_arg4) (V m c main_v6) i := by
  obtain ⟨b, r, rfl⟩ : ∃ (b : Fin 8) (r : Fin 128), y = ix2 b r := ⟨y 0, y 1, eq_ix2 y⟩
  obtain ⟨b', n, rfl⟩ : ∃ (b' : Fin 8) (n : Fin 4096), i = ix2 b' n := ⟨i 0, i 1, eq_ix2 i⟩
  obtain rfl : b' = b := Fin.ext hi0
  refine (ScoreTile.pay_apply (iblk m c 0 t) (iblk m c 1 t) (iblk m c 2 t) (iblk m c 3 t) b' r).trans ?_
  show _ = scoreAt _ _ _ _ b' n
  unfold scoreAt
  refine Finset.sum_congr rfl fun e _ => ?_
  rw [bias_apply m c t e, query_apply m c t b' e]
  refine congrArg (fun s => (s + (V m c main_arg4 : S1024.Idx → EReal) (ix1 e)) * (V m c main_v6 : S8x1024.Idx → EReal) (ix2 b' e)) ?_
  refine Finset.sum_congr rfl fun d _ => ?_
  rw [tile_apply m c t b' r d n hi1, weights_apply m c t d e]

/-- WHAT POINT `t` WRITES BACK is block `t` of the array of scores. -/
theorem flushed_eq (c : Dev nD) (t : Fin cfg0.N) :
    (dats m 0 c).flushed 4 t
      = ((cfg0.win 4).blk t).view.read (Elt Ideal) (scoreArr (V m c main_arg0) (V m c main_v7) (V m c main_arg4) (V m c main_v6)) := by
  obtain ⟨-, -, -, -, -, -, -, -, e0, e1⟩ := idx_facts t
  show (cfg0.win 4).cut (grid0.coords t) ((dats m 0 c).after 4 t) = _
  rw [after0_4]
  unfold out0_4
  rw [View.canon_unit_zero hz2]
  simp only [View.ld_unit_zero (S := S8x128x1024) hz3, View.ld_unit_zero (S := S1024x1024) hz2,
    View.ld_unit_zero (S := S1024) hz1, View.ld_unit_zero (S := S8x1024) hz2]
  funext j
  refine stored_eq m c t j (((cfg0.win 4).blk t).view.emb j) ?_ ?_
  · show win0_4.index t (0 : Fin 2) * 8 + 1 * (j 0).val = (j 0).val; omega
  · show win0_4.index t (1 : Fin 2) * 128 + 1 * (j 1).val = t.val * 128 + (j 1).val; omega

/-- An index of the array is in point `t`'s block iff each coordinate is in the block's range on its axis. -/
theorem mem_blk (t : Fin cfg0.N) (i : S8x4096.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v8).slice (win0_4.rect t)).set ↔ _
  rw [View.set_slice_whole, Rect.mem_set_unit]
  exact Iff.rfl

/-- Key row `n` lies in the block of tile `n / 128`. -/
theorem covered (i : S8x4096.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hN : cfg0.N = 32 := N_0
  refine ⟨⟨(i 1).val / 128, by rw [hN]; omega⟩, flush0_4 _, ?_⟩
  obtain ⟨-, -, -, -, -, -, -, -, e0, e1⟩ := idx_facts ⟨(i 1).val / 128, by rw [hN]; omega⟩
  rw [mem_blk]
  intro a
  match a with
  | ⟨0, _⟩ =>
    show win0_4.index _ (0 : Fin 2) * 8 ≤ (i 0).val ∧ (i 0).val < win0_4.index _ (0 : Fin 2) * 8 + 8
    rw [e0]; omega
  | ⟨1, _⟩ =>
    show win0_4.index _ (1 : Fin 2) * 128 ≤ (i 1).val ∧ (i 1).val < win0_4.index _ (1 : Fin 2) * 128 + 128
    rw [e1]; show (i 1).val / 128 * 128 ≤ (i 1).val ∧ (i 1).val < (i 1).val / 128 * 128 + 128; omega

/-- THE ARRAY OF SCORES after the launch. -/
theorem scores_final (c : Dev nD) :
    (dats m 0 c).arrAt 4 cfg0.N = scoreArr (V m c main_arg0) (V m c main_v7) (V m c main_arg4) (V m c main_v6) :=
  (dats m 0 c).arrAt_eq_of_cover 4 _ (fun t _ => flushed_eq m c t) covered

/-- In terms of the arguments: the score of query row 0 against key row `n`, the key's factor written first, which is
    the score with the query's factor first. -/
theorem scoreArr_eq (c : Dev nD) (b : Fin 8) (n : Fin 4096) :
    scoreArr (V m c main_arg0) (V m c main_v7) (V m c main_arg4) (V m c main_v6) (ix2 b n)
      = score (m ((c : Thread nD τ).loc main_arg0)) (m ((c : Thread nD τ).loc main_arg1)) (m ((c : Thread nD τ).loc main_arg2))
          (m ((c : Thread nD τ).loc main_arg3)) (m ((c : Thread nD τ).loc main_arg4)) b n := by
  rw [← score_key_first]
  show scoreAt _ _ _ _ b n = _
  unfold scoreAt
  refine Finset.sum_congr rfl fun e _ => ?_
  rw [V_queryRow0 m c, queryRow0_apply, V_main_arg4 m c]
  refine congrArg (· * _) ?_
  unfold proj
  refine congrArg (· + _) (Finset.sum_congr rfl fun d _ => ?_)
  rw [V_main_arg0 m c, V_keyWeightsT m c, transpose_ix2_apply]

/-! ## The host lines after the launch, and the run -/

/-- The result buffer after the host's last lines: the softmax lines applied to the array the launch left. -/
theorem tail_eq (c : Dev nD) :
    Pipeline.afterTail₀ cfgs (dats m) 0 (V0 m) [hostOps1] c main_v19
      = SoftmaxRows.softmaxLines reducesTo_S8x4096_S8_d1 h_S_ bcast_S_S8 bcast_S8_S8x1_0 bcast_S8x1_S8x4096_0_1
          ((dats m 0 c).arrAt 4 cfg0.N) := by
  have hw : Pipeline.withArrays spec0 c (V0 m c) (fun w => (dats m 0 c).arrAt w cfg0.N) (Proc.devRef .tc main_v8)
      = (dats m 0 c).arrAt 4 cfg0.N := Pipeline.withArrays_arr spec0 launch0.win.arr_inj c _ _ 4
  unfold Pipeline.afterTail₀
  show StableHlo.after hostOps1 _ (Proc.devRef .tc main_v19) = _
  after_results
  rw [hw]
  rfl

/-- THE KERNEL'S RESULT is row 0 of the attention map of the arguments. -/
theorem result_eq (c : Dev nD) :
    Pipeline.afterTail₀ cfgs (dats m) 0 (V0 m) [hostOps1] c main_v19
      = attnRow0 (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_eq, scores_final]
  funext i
  obtain ⟨b, n, rfl⟩ : ∃ (b : Fin 8) (n : Fin 4096), i = ix2 b n := ⟨i 0, i 1, eq_ix2 i⟩
  rw [SoftmaxRows.softmaxLines_apply]
  show rowSoftmax _ n = rowSoftmax (score _ _ _ _ _ b) n
  exact congrArg (fun s => rowSoftmax s n) (funext fun k => scoreArr_eq m c b k)

/-- The run, read: the result buffer ends at row 0 of the attention map, the arguments as launched. -/
theorem run : θ_run defs (onTc (τ := τ) (main (F := Ideal))) ⟨m, fun _ => 0, ρ⟩ fun r => ∀ c : Dev nD,
      r.2.mem ((c.tc : Thread nD τ).loc main_v19)
        = attnRow0 (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v19 (Pipeline.mem_restRefs_of main_v19 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c)))⟩)
    (run_main m ρ)

end Cert.KernelIdeal.KernelValue

end
-- ==== Proof.lean ====
/- The kernel and its reference compute one function of the arguments over the extended reals: row 0 of a softmax
   attention map (Proof/Attention.lean). The reference projects every row of the input to a query and a key, forms all
   scores, applies the softmax along the keys and keeps query row 0 (Proof/ReferenceValue.lean). The kernel projects
   only query row 0 on the host, computes that row's 4096 scores tile by tile in the launch — each term of the inner
   product written with the key's factor first, where the reference writes the query's first — and applies the same
   softmax on the host afterwards (Proof/ScoreTile.lean, Proof/SoftmaxRows.lean, Proof/KernelValue.lean). The two
   inner products agree because multiplication of extended reals commutes; nothing else separates the two programs, so
   the finiteness of the inputs is never used. The idealized kernel is the kernel's own text read over the extended
   reals, no operation rewritten, so the claim relating the two is trivially true. -/
import proofs.«138521_j20126216750030_1_alg».proof.Defs
import proofs.«138521_j20126216750030_1_alg».proof.Proof.Gen.Kernel
import proofs.«138521_j20126216750030_1_alg».proof.Proof.Gen.Kernel.Skeleton
import proofs.«138521_j20126216750030_1_alg».proof.Proof.Gen.Kernel.Launch
import proofs.«138521_j20126216750030_1_alg».proof.Proof.Gen.Kernel.Points
import proofs.«138521_j20126216750030_1_alg».proof.Proof.Gen.Kernel.Frame
import proofs.«138521_j20126216750030_1_alg».proof.Proof.Gen.KernelIdeal
import proofs.«138521_j20126216750030_1_alg».proof.Proof.Gen.KernelIdeal.Skeleton
import proofs.«138521_j20126216750030_1_alg».proof.Proof.Gen.KernelIdeal.Launch
import proofs.«138521_j20126216750030_1_alg».proof.Proof.Gen.KernelIdeal.Points
import proofs.«138521_j20126216750030_1_alg».proof.Proof.Gen.KernelIdeal.Frame
import proofs.«138521_j20126216750030_1_alg».proof.Proof.Gen.ReferenceIdeal
import proofs.«138521_j20126216750030_1_alg».proof.Proof.Gen.ReferenceIdeal.Run
import proofs.«138521_j20126216750030_1_alg».proof.Proof.Gen.ReferenceIdeal.Read
import proofs.«138521_j20126216750030_1_alg».proof.Proof.Gen.Pre_finite_inputs
import proofs.«138521_j20126216750030_1_alg».proof.Proof.ReferenceValue
import proofs.«138521_j20126216750030_1_alg».proof.Proof.KernelValue
import Idealize.ShloMosaic.Adequacy
import Idealize.ShloMosaic.Init

noncomputable section

namespace Cert.Proof

open Idealize.ShloMosaic Idealize.SL.Sem

/-- The kernel as printed terminates without a fault and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its reading over the extended reals: nothing to preserve. -/
theorem preserves : Cert.preserves_Kernel_KernelIdeal := trivial

/-- From memories that agree on the arguments both programs end with row 0 of the attention map of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
